-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x16 : Shape := ⟨3, ![128, 8192, 16]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S128x8192x16 : S_.BroadcastsInDim S128x8192x16 (![] : Fin 0 → Fin S128x8192x16.rank)
  reducesTo_S128x8192x16_S_d0_1_2 : S128x8192x16.ReducesTo [0, 1, 2] S_
  h_S_ : 0 < S_.numel
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S128x8192x16 .f32) (main_arg1 : FVec F S16 .f32) (main_arg2 : FVec F S1x16 .f32) (main_arg3 : FVec F S1 .f32) : IVec S_ 1 :=
  let main_v0 : FVec F S128x8192x16 .f32 := Host.absf main_arg0
  let main_cst : FVec F S_ .f32 := constant S_ .f32 0x7F800000#32
  let main_v1 : FVec F S128x8192x16 .f32 := broadcastInDim S128x8192x16 ![] bcast_S_S128x8192x16 main_cst
  let main_v2 : IVec S128x8192x16 1 := cmpf .olt main_v0 main_v1
  let main_c : IVec S_ 1 := constantI S_ 1 1#1
  let main_v3 : IVec S_ 1 := (fun x v => Host.reduce IntOp.andi x v reducesTo_S128x8192x16_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S128x8192x16 : Shape := ⟨3, ![128, 8192, 16]⟩
abbrev S16 : Shape := ⟨1, ![16]⟩
abbrev S1x16 : Shape := ⟨2, ![1, 16]⟩
abbrev S1 : Shape := ⟨1, ![1]⟩
abbrev S1x1x16 : Shape := ⟨3, ![1, 1, 16]⟩
abbrev S1x1 : Shape := ⟨2, ![1, 1]⟩
abbrev S128x8192 : Shape := ⟨2, ![128, 8192]⟩
abbrev S128x128x16 : Shape := ⟨3, ![128, 128, 16]⟩
abbrev S128x128 : Shape := ⟨2, ![128, 128]⟩
abbrev S128x8192x1 : Shape := ⟨3, ![128, 8192, 1]⟩

abbrev nBuf : Space → Nat
  | .hbm => 11
  | .vmem => 6
  | .smem => 0
  | _ => 0

abbrev bufTy : (tb : Table) → Fin (tcTables nBuf tb) → BufTy
  | .hbm, ⟨0, _⟩ => ⟨S128x8192x16, .f32⟩
  | .hbm, ⟨1, _⟩ => ⟨S16, .f32⟩
  | .hbm, ⟨2, _⟩ => ⟨S1x16, .f32⟩
  | .hbm, ⟨3, _⟩ => ⟨S1, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1x1x16, .f32⟩
  | .hbm, ⟨8, _⟩ => ⟨S1x1, .f32⟩
  | .hbm, ⟨9, _⟩ => ⟨S128x8192, .f32⟩
  | .hbm, ⟨10, _⟩ => ⟨S128x8192x1, .f32⟩
  | .local _ .vmem, ⟨0, _⟩ => ⟨S128x128x16, .f32⟩
  | .local _ .vmem, ⟨1, _⟩ => ⟨S128x128x16, .f32⟩
  | .local _ .vmem, ⟨2, _⟩ => ⟨S1x1x16, .f32⟩
  | .local _ .vmem, ⟨3, _⟩ => ⟨S1x1, .f32⟩
  | .local _ .vmem, ⟨4, _⟩ => ⟨S128x128, .f32⟩
  | .local _ .vmem, ⟨5, _⟩ => ⟨S128x128, .f32⟩
  | _, _ => ⟨S128x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x16_S16 : S1x16.ShapeCasts S16
  shapeCasts_S16_S1x1x16 : S16.ShapeCasts S1x1x16
  shapeCasts_S1_S1x1 : S1.ShapeCasts S1x1
  inb_S128x128x16_S128x128x16_0_0_0 : ∀ a, (![0, 0, 0] : Fin 3 → Nat) a + S128x128x16.size a ≤ S128x128x16.size a
  h_S128x128x16 : 0 < S128x128x16.numel
  inb_S1x1x16_S1x1x16_0_0_0 : ∀ a, (![0, 0, 0] : Fin 3 → Nat) a + S1x1x16.size a ≤ S1x1x16.size a
  h_S1x1x16 : 0 < S1x1x16.numel
  shapeCasts_S1x1x16_S1x1x16 : S1x1x16.ShapeCasts S1x1x16
  broadcasts_S1x1x16_S128x128x16 : S1x1x16.Broadcasts S128x128x16
  reduces_S128x128x16_S128x128 : S128x128x16.Reduces [2] S128x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x128 : S1x1.Broadcasts S128x128
  inb_S128x128_S128x128_0_0 : ∀ a, (![0, 0] : Fin 2 → Nat) a + S128x128.size a ≤ S128x128.size a
  h_S128x128 : 0 < S128x128.numel
  bcast_S128x8192_S128x8192x1_0_1 : S128x8192.BroadcastsInDim S128x8192x1 (![0, 1] : Fin 2 → Fin S128x8192x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x16.size a ≤ S128x8192x16.size a
  hwx0_0 : ∀ i : grid0.Coords, EltTy.bits .f32 = 32 ∨ (Rect.block (s := S128x8192x16) S128x128x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x16.size a ≤ S1x1x16.size a
  hwx0_1 : ∀ i : grid0.Coords, EltTy.bits .f32 = 32 ∨ (Rect.block (s := S1x1x16) S1x1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x8192.size a
  hwx0_3 : ∀ i : grid0.Coords, EltTy.bits .f32 = 32 ∨ (Rect.block (s := S128x8192) S128x128.size (cc0_transform_3 i) (hinb0_3 i)).WholeWords (EltTy.packing .f32)

variable [Facts₀]

abbrev win0_0 : Pipeline.Window sig grid0 :=
  Pipeline.Window.ofSpec (Memref.whole main_arg0) S128x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x8192x16 : Shape := ⟨3, ![128, 8192, 16]⟩
abbrev S16 : Shape := ⟨1, ![16]⟩
abbrev S1x16 : Shape := ⟨2, ![1, 16]⟩
abbrev S1 : Shape := ⟨1, ![1]⟩
abbrev S1x1x16 : Shape := ⟨3, ![1, 1, 16]⟩
abbrev S128x8192x1 : Shape := ⟨3, ![128, 8192, 1]⟩
abbrev S1x1x1 : Shape := ⟨3, ![1, 1, 1]⟩

abbrev nBuf : Space → Nat
  | .hbm => 13
  | .vmem => 0
  | .smem => 0
  | _ => 0

abbrev bufTy : (tb : Table) → Fin (tcTables nBuf tb) → BufTy
  | .hbm, ⟨0, _⟩ => ⟨S128x8192x16, .f32⟩
  | .hbm, ⟨1, _⟩ => ⟨S16, .f32⟩
  | .hbm, ⟨2, _⟩ => ⟨S1x16, .f32⟩
  | .hbm, ⟨3, _⟩ => ⟨S1, .f32⟩
  | .hbm, ⟨4, _⟩ => ⟨S128x8192x16, .f32⟩
  | .hbm, ⟨5, _⟩ => ⟨S16, .f32⟩
  | .hbm, ⟨6, _⟩ => ⟨S1x1x16, .f32⟩
  | .hbm, ⟨7, _⟩ => ⟨S128x8192x16, .f32⟩
  | .hbm, ⟨8, _⟩ => ⟨S128x8192x16, .f32⟩
  | .hbm, ⟨9, _⟩ => ⟨S128x8192x1, .f32⟩
  | .hbm, ⟨10, _⟩ => ⟨S1x1x1, .f32⟩
  | .hbm, ⟨11, _⟩ => ⟨S128x8192x1, .f32⟩
  | .hbm, ⟨12, _⟩ => ⟨S128x8192x1, .f32⟩
  | _, _ => ⟨S128x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S128x8192x16_0_1_2 : S1x1x16.BroadcastsInDim S128x8192x16 (![0, 1, 2] : Fin 3 → Fin S128x8192x16.rank)
  bcast_S1_S1x1x1_2 : S1.BroadcastsInDim S1x1x1 (![2] : Fin 1 → Fin S1x1x1.rank)
  bcast_S1x1x1_S128x8192x1_0_1_2 : S1x1x1.BroadcastsInDim S128x8192x1 (![0, 1, 2] : Fin 3 → Fin S128x8192x1.rank)
  dot_S128x8192x16_S1x16_S128x8192x1_2_1_01_0_n_n_wf : DotDims.WF S128x8192x16 S1x16 S128x8192x1 [2] [1] [0, 1] [0] [] []

variable [Facts₀]

def dot_S128x8192x16_S1x16_S128x8192x1_2_1_01_0_n_n : DotDims S128x8192x16 S1x16 S128x8192x1 where
  lhsContracting := [2]
  rhsContracting := [1]
  lhsNonContracting := [0, 1]
  rhsNonContracting := [0]
  lhsBatch := []
  rhsBatch := []
  wf := dot_S128x8192x16_S1x16_S128x8192x1_2_1_01_0_n_n_wf

class Facts : Prop extends Facts₀ where

variable [Facts]
-- ==== Proof.Spec.lean ====
/-
  The function both programs compute, written once over literal shapes.

  For a token (p, r) of a [128, 8192, 16] array of angles x, a vector θ of 16 angles, a row w of 16 weights and a
  bias b, the readout is

      ρ(p, r) = (Σ_{q < 16} cos x[p, r, q] · (cos θ[q] · w[0, q])) + b[0],

  an extended real. The result array is ρ with a trailing unit axis. One arrangement multiplies cos x by the
  pre-multiplied vector cos θ · w; the other forms cos x · cos θ first and then contracts with w. The two agree
  term by term by associativity of the product, which holds for every extended real (the infinities included), so
  no finiteness of the inputs is used.
-/
import Idealize.ShloMosaic.PureOps.Ideal
import Idealize.ShloMosaic.Lib.ValueIdx

noncomputable section

open scoped BigOperators

namespace Cert.Readout

open Idealize.ShloMosaic Idealize.ShloMosaic.ValueIdx

/-- The weighted-cosine readout of token (p, r): the pre-multiplied arrangement. -/
def readout (x : FVec Ideal ⟨3, ![128, 8192, 16]⟩ .f32) (θ : FVec Ideal ⟨1, ![16]⟩ .f32)
    (w : FVec Ideal ⟨2, ![1, 16]⟩ .f32) (b : FVec Ideal ⟨1, ![1]⟩ .f32) (p : Fin 128) (r : Fin 8192) : EReal :=
  (∑ q : Fin 16, Ideal.cos (x (ix3 p r q)) * (Ideal.cos (θ (ix1 q)) * w (ix2 (0 : Fin 1) q))) + b (ix1 (0 : Fin 1))

/-- The same sum with cos x · cos θ formed first and w applied last: equal term by term, by associativity of the
    product of extended reals. -/
theorem readout_eq_contract (x : FVec Ideal ⟨3, ![128, 8192, 16]⟩ .f32) (θ : FVec Ideal ⟨1, ![16]⟩ .f32)
    (w : FVec Ideal ⟨2, ![1, 16]⟩ .f32) (b : FVec Ideal ⟨1, ![1]⟩ .f32) (p : Fin 128) (r : Fin 8192) :
    (∑ q : Fin 16, (Ideal.cos (x (ix3 p r q)) * Ideal.cos (θ (ix1 q))) * w (ix2 (0 : Fin 1) q)) + b (ix1 (0 : Fin 1))
      = readout x θ w b p r := by
  unfold readout
  exact congrArg (· + b (ix1 (0 : Fin 1))) (Finset.sum_congr rfl fun q _ => mul_assoc _ _ _)

/-- The readout as a [128, 8192] array. -/
def plane (x : FVec Ideal ⟨3, ![128, 8192, 16]⟩ .f32) (θ : FVec Ideal ⟨1, ![16]⟩ .f32)
    (w : FVec Ideal ⟨2, ![1, 16]⟩ .f32) (b : FVec Ideal ⟨1, ![1]⟩ .f32) : FVec Ideal ⟨2, ![128, 8192]⟩ .f32 :=
  fun j => readout x θ w b ⟨(j 0).val, idx2_lt0 j⟩ ⟨(j 1).val, idx2_lt1 j⟩

/-- The readout as the [128, 8192, 1] result array: the plane with a trailing unit axis. -/
def result (x : FVec Ideal ⟨3, ![128, 8192, 16]⟩ .f32) (θ : FVec Ideal ⟨1, ![16]⟩ .f32)
    (w : FVec Ideal ⟨2, ![1, 16]⟩ .f32) (b : FVec Ideal ⟨1, ![1]⟩ .f32) : FVec Ideal ⟨3, ![128, 8192, 1]⟩ .f32 :=
  fun i => readout x θ w b ⟨(i 0).val, (i 0).isLt⟩ ⟨(i 1).val, (i 1).isLt⟩

/-- The result at (p, r, 0) is the plane at (p, r). -/
theorem result_apply (x : FVec Ideal ⟨3, ![128, 8192, 16]⟩ .f32) (θ : FVec Ideal ⟨1, ![16]⟩ .f32)
    (w : FVec Ideal ⟨2, ![1, 16]⟩ .f32) (b : FVec Ideal ⟨1, ![1]⟩ .f32) (i : (⟨3, ![128, 8192, 1]⟩ : Shape).Idx) :
    result x θ w b i = plane x θ w b (ix2 ⟨(i 0).val, (i 0).isLt⟩ ⟨(i 1).val, (i 1).isLt⟩) := rfl

end Cert.Readout

end
-- ==== Proof.RefValue.lean ====
/-
  The reference program's result, read index by index, is the readout.

  The reference forms cos x · cos θ (θ spread over the tokens by two broadcasts), contracts the last axis with w, and
  adds the bias spread over the tokens. At (p, r, 0) that is Σ_q (cos x[p,r,q] · cos θ[q]) · w[0,q] + b[0], which is
  the readout by associativity of the product.
-/
import proofs.«116402_j65481071405380_2_alg».proof.Proof.Gen.ReferenceIdeal.Read
import proofs.«116402_j65481071405380_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Readout

/-- The left operand of the contraction is read at (p, r, q). -/
theorem lidx_eq (i : S128x8192x1.Idx) (q : Fin 16) :
    lidx_main_v5 i q = ix3 (⟨(i 0).val, (i 0).isLt⟩ : Fin 128) (⟨(i 1).val, (i 1).isLt⟩ : Fin 8192) q :=
  funext fun a => Fin.ext (by match a with | ⟨0, _⟩ => rfl | ⟨1, _⟩ => rfl | ⟨2, _⟩ => rfl)

/-- The right operand of the contraction is read at (0, q): the result's last coordinate is 0. -/
theorem ridx_eq (i : S128x8192x1.Idx) (q : Fin 16) : ridx_main_v5 i q = ix2 (0 : Fin 1) q :=
  funext fun a => Fin.ext (by
    match a with
    | ⟨0, _⟩ => show (i 2).val = 0; have h : (i 2).val < 1 := (i 2).isLt; omega
    | ⟨1, _⟩ => rfl)

/-- θ spread over the tokens is read at q. -/
theorem theta_idx_eq (p : Fin 128) (r : Fin 8192) (q : Fin 16) : idx_main_v2 (idx_main_v3 (ix3 p r q)) = ix1 q :=
  funext fun a => Fin.ext (by match a with | ⟨0, _⟩ => rfl)

/-- The bias spread over the tokens is read at 0. -/
theorem bias_idx_eq (i : S128x8192x1.Idx) : idx_main_v6 (idx_main_v7 i) = ix1 (0 : Fin 1) :=
  funext fun a => Fin.ext (by match a with | ⟨0, _⟩ => rfl)

/-- The reference's last stage is the readout's result array. -/
theorem stage_eq_result (x0 : FVec Ideal S128x8192x16 .f32) (x1 : FVec Ideal S16 .f32) (x2 : FVec Ideal S1x16 .f32)
    (x3 : FVec Ideal S1 .f32) : val_main_v8 (F := Ideal) x0 x1 x2 x3 = result x0 x1 x2 x3 := by
  funext i
  rw [val_main_v8_apply, val_main_v5_apply, val_main_v7_apply, val_main_v6_apply]
  simp only [val_main_v4_apply, val_main_v0_apply, val_main_v3_apply, val_main_v2_apply, val_main_v1_apply,
    Ideal.addf_def, Ideal.mulf_def, Ideal.hostUnary_cos_def, theta_idx_eq, bias_idx_eq, lidx_eq, ridx_eq]
  exact readout_eq_contract x0 x1 x2 x3 _ _

end Cert.ReferenceIdeal.RefValue

end
-- ==== Proof.KernelBody.lean ====
/-
  What the kernel body stores, read at one entry of its [128, 128] block.

  From a [128, 128, 16] block X of angles, a [1, 1, 16] row c and a [1, 1] bias β the body stores, at (p, r),

      (Σ_{q < 16} cos X[p, r, q] · c[0, 0, q]) + β[0, 0]:

  the cosine is entrywise, c and β are spread over the block by broadcasts, and the sum over the last axis starts
  from the zero word, which at the ideal values is the neutral element and leaves the plain sum.
-/
import proofs.«116402_j65481071405380_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-- A sum over the last axis of a [128, 128, 16] block, from the zero word, read at (p, r): the sum over q of the
    block at (p, r, q). -/
theorem lane_sum (src : FVec Ideal S128x128x16 .f32) (h : S128x128x16.Reduces [2] S128x128) (hφ : FKind.Formats .f32)
    (hacc : (0x00000000#32 : BitVec 32) = FKind.add.neutral .f32 hφ) (p r : Fin 128) :
    multiReduction .add [2] S128x128 src 0x00000000#32 h hφ hacc (ix2 p r) = ∑ q : Fin 16, src (ix3 p r q) := by
  refine (Ideal.multiReduction_add_single src _ h hφ hacc (ix2 p r)).trans ?_
  show ∑ q : Fin 16, src (h.lift (ix2 p r) q) = _
  refine Finset.sum_congr rfl fun q _ => congrArg src ?_
  funext a
  apply Fin.ext
  match a with
  | ⟨0, _⟩ => rfl
  | ⟨1, _⟩ => rfl
  | ⟨2, _⟩ => rfl

/-- The [1, 1, 16] row spread over the block is read at (0, 0, q). -/
theorem row_spread (x1 : FVec Ideal S1x1x16 .f32) (hc : S1x1x16.ShapeCasts S1x1x16) (hb : S1x1x16.Broadcasts S128x128x16)
    (p r : Fin 128) (q : Fin 16) :
    broadcastTo S128x128x16 (shapeCast S1x1x16 x1 hc) hb (ix3 p r q) = x1 (ix3 (0 : Fin 1) (0 : Fin 1) q) := by
  rw [shapeCast_self]
  exact broadcastTo_apply x1 hb (ix3 p r q) (ix3 (0 : Fin 1) (0 : Fin 1) q) (fun a => match a with
    | ⟨0, _⟩ => by show (0 : ℕ) = if (1 : ℕ) = 1 then 0 else _; rw [if_pos rfl]
    | ⟨1, _⟩ => by show (0 : ℕ) = if (1 : ℕ) = 1 then 0 else _; rw [if_pos rfl]
    | ⟨2, _⟩ => by show q.val = if (16 : ℕ) = 1 then 0 else q.val; rw [if_neg (by decide)])

/-- The [1, 1] bias spread over the block is read at (0, 0). -/
theorem bias_spread (x2 : FVec Ideal S1x1 .f32) (hc : S1x1.ShapeCasts S1x1) (hb : S1x1.Broadcasts S128x128)
    (p r : Fin 128) :
    broadcastTo S128x128 (shapeCast S1x1 x2 hc) hb (ix2 p r) = x2 (ix2 (0 : Fin 1) (0 : Fin 1)) := by
  rw [shapeCast_self]
  exact broadcastTo_apply x2 hb (ix2 p r) (ix2 (0 : Fin 1) (0 : Fin 1)) (fun a => match a with
    | ⟨0, _⟩ => by show (0 : ℕ) = if (1 : ℕ) = 1 then 0 else _; rw [if_pos rfl]
    | ⟨1, _⟩ => by show (0 : ℕ) = if (1 : ℕ) = 1 then 0 else _; rw [if_pos rfl])

/-- THE STORED VALUE at (p, r): the weighted sum of the cosines of row (p, r) of the block, plus the bias. -/
theorem stored_apply (x0 : Vec Ideal S128x128x16 .f32) (x1 : Vec Ideal S1x1x16 .f32) (x2 : Vec Ideal S1x1 .f32)
    (p r : Fin 128) :
    k0_pay1 (F := Ideal) x0 x1 x2 (ix2 p r)
      = (∑ q : Fin 16, Ideal.cos (x0 (ix3 p r q)) * x1 (ix3 (0 : Fin 1) (0 : Fin 1) q)) + x2 (ix2 (0 : Fin 1) (0 : Fin 1)) := by
  unfold k0_pay1
  show (multiReduction (F := Ideal) (φ := .f32) .add [2] S128x128
        (mulf (F := Ideal) (φ := .f32) (cos (F := Ideal) (φ := .f32) x0) (broadcastTo S128x128x16 (shapeCast S1x1x16 x1 _) _))
        0x00000000#32 _ _ _ (ix2 p r) : EReal)
      + (broadcastTo S128x128 (shapeCast S1x1 x2 _) _ (ix2 p r) : EReal) = _
  refine congrArg₂ (· + ·) ((lane_sum _ _ _ _ p r).trans ?_) (bias_spread x2 _ _ p r)
  refine Finset.sum_congr rfl fun q _ => ?_
  show Ideal.cos (x0 (ix3 p r q)) * (broadcastTo S128x128x16 (shapeCast S1x1x16 x1 _) _ (ix3 p r q) : EReal) = _
  exact congrArg (Ideal.cos (x0 (ix3 p r q)) * ·) (row_spread x1 _ _ p r q)

end Cert.KernelIdeal.Body

end
-- ==== Proof.KernelGlue.lean ====
/-
  The two small arrays the host lines before the region prepare, read at an entry.

  Before the region the program forms c = cos θ · w (w's [1, 16] row flattened to [16], the product reshaped to
  [1, 1, 16]) and reshapes the bias [1] to [1, 1]. A reshape keeps the row-major position, so

      c[0, 0, q] = cos θ[q] · w[0, q]      and      β[0, 0] = b[0].
-/
import proofs.«116402_j65481071405380_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Glue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- A [16] vector reshaped to [1, 1, 16], read at (0, 0, q), is the vector at q. -/
theorem cast_16_1x1x16 (y : FVec Ideal S16 .f32) (h : S16.ShapeCasts S1x1x16) (q : Fin 16) :
    shapeCast S1x1x16 y h (ix3 (0 : Fin 1) (0 : Fin 1) q) = y (ix1 q) :=
  shapeCast_apply y h (ix3 (0 : Fin 1) (0 : Fin 1) q) (ix1 q) (by
    rw [Shape.rowMajor_val_one, Shape.rowMajor_val_three]
    show q.val = (0 * 1 + 0) * 16 + q.val
    omega)

/-- A [1, 16] row flattened to [16], read at q, is the row at (0, q). -/
theorem cast_1x16_16 (y : FVec Ideal S1x16 .f32) (h : S1x16.ShapeCasts S16) (q : Fin 16) :
    shapeCast S16 y h (ix1 q) = y (ix2 (0 : Fin 1) q) :=
  shapeCast_apply y h (ix1 q) (ix2 (0 : Fin 1) q) (by
    rw [Shape.rowMajor_val_one, Shape.rowMajor_val_two]
    show 0 * 16 + q.val = q.val
    omega)

/-- A [1] vector reshaped to [1, 1], read at (0, 0), is the vector at 0. -/
theorem cast_1_1x1 (y : FVec Ideal S1 .f32) (h : S1.ShapeCasts S1x1) :
    shapeCast S1x1 y h (ix2 (0 : Fin 1) (0 : Fin 1)) = y (ix1 (0 : Fin 1)) :=
  shapeCast_apply y h (ix2 (0 : Fin 1) (0 : Fin 1)) (ix1 (0 : Fin 1)) (by
    rw [Shape.rowMajor_val_one, Shape.rowMajor_val_two]
    show 0 = 0 * 1 + 0
    omega)

/-- The row array the region finds: cos θ · (w flattened), reshaped to [1, 1, 16]. -/
theorem row_array (c : Dev nD) :
    @Eq (FVec Ideal S1x1x16 .f32) (V m c main_v3)
      (shapeCast S1x1x16 (mulf (F := Ideal) (φ := .f32) (Host.cos (F := Ideal) (φ := .f32) (m ((c : Thread nD τ).loc main_arg1)))
          (shapeCast S16 (m ((c : Thread nD τ).loc main_arg2)) shapeCasts_S1x16_S16)) shapeCasts_S16_S1x1x16) := by
  show StableHlo.after hostOps0 (fun b => m (c, b)) (Proc.devRef .tc main_v3) = _
  after_results
  rfl

/-- The bias array the region finds: b reshaped to [1, 1]. -/
theorem bias_array (c : Dev nD) :
    @Eq (FVec Ideal S1x1 .f32) (V m c main_v4) (shapeCast S1x1 (m ((c : Thread nD τ).loc main_arg3)) shapeCasts_S1_S1x1) := by
  show StableHlo.after hostOps0 (fun b => m (c, b)) (Proc.devRef .tc main_v4) = _
  after_results
  rfl

/-- c[0, 0, q] = cos θ[q] · w[0, q]. -/
theorem row_array_apply (c : Dev nD) (q : Fin 16) :
    (V m c main_v3 : FVec Ideal S1x1x16 .f32) (ix3 (0 : Fin 1) (0 : Fin 1) q)
      = Ideal.cos ((m ((c : Thread nD τ).loc main_arg1) : FVec Ideal S16 .f32) (ix1 q))
        * (m ((c : Thread nD τ).loc main_arg2) : FVec Ideal S1x16 .f32) (ix2 (0 : Fin 1) q) := by
  refine (congrFun (row_array m c) _).trans ?_
  refine (cast_16_1x1x16 _ _ q).trans ?_
  show Ideal.cos _ * (shapeCast S16 (m ((c : Thread nD τ).loc main_arg2)) shapeCasts_S1x16_S16 (ix1 q) : EReal) = _
  exact congrArg (Ideal.cos _ * ·) (cast_1x16_16 _ _ q)

/-- β[0, 0] = b[0]. -/
theorem bias_array_apply (c : Dev nD) :
    (V m c main_v4 : FVec Ideal S1x1 .f32) (ix2 (0 : Fin 1) (0 : Fin 1))
      = (m ((c : Thread nD τ).loc main_arg3) : FVec Ideal S1 .f32) (ix1 (0 : Fin 1)) :=
  (congrFun (bias_array m c) _).trans (cast_1_1x1 _ _)

end Cert.KernelIdeal.Glue

end
-- ==== Proof.KernelValue.lean ====
/-
  What the kernel program's result array holds after the run: the readout of the launch arrays.

  The grid has 64 points; point t reads rows 128·t … 128·t + 127 of every batch entry of x (block (0, t, 0)), the whole
  row array c and the whole bias β, and writes back block (0, t) of a [128, 8192] array. So what point t writes back
  is block t of ONE whole-array function, the readout's plane: entry (p, r) of the block is the readout of token
  (p, 128·t + r). The 64 blocks tile the array (column r' lies in block r' / 128), so the array ends as the plane;
  the host line after the region only appends a unit axis.
-/
import proofs.«116402_j65481071405380_2_alg».proof.Proof.Gen.KernelIdeal.Frame
import proofs.«116402_j65481071405380_2_alg».proof.Proof.Spec
import proofs.«116402_j65481071405380_2_alg».proof.Proof.KernelBody
import proofs.«116402_j65481071405380_2_alg».proof.Proof.KernelGlue
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx Cert.Readout

/-! ## One stored entry is one readout -/

/-- An entry y of the stored block is the plane at i, once the angle block's row y is x's row i and the row and bias
    arrays are cos θ · w and b. -/
theorem stored_eq_plane (x0 : Vec Ideal S128x128x16 .f32) (x1 : Vec Ideal S1x1x16 .f32) (x2 : Vec Ideal S1x1 .f32)
    (X : FVec Ideal S128x8192x16 .f32) (θ : FVec Ideal S16 .f32) (w : FVec Ideal S1x16 .f32) (b : FVec Ideal S1 .f32)
    (y : S128x128.Idx) (i : S128x8192.Idx)
    (h0 : ∀ q : Fin 16, x0 (ix3 (⟨(y 0).val, idx2_lt0 y⟩ : Fin 128) (⟨(y 1).val, idx2_lt1 y⟩ : Fin 128) q)
      = X (ix3 (⟨(i 0).val, idx2_lt0 i⟩ : Fin 128) (⟨(i 1).val, idx2_lt1 i⟩ : Fin 8192) q))
    (h1 : ∀ q : Fin 16, x1 (ix3 (0 : Fin 1) (0 : Fin 1) q) = Ideal.cos (θ (ix1 q)) * w (ix2 (0 : Fin 1) q))
    (h2 : x2 (ix2 (0 : Fin 1) (0 : Fin 1)) = b (ix1 (0 : Fin 1))) :
    Gen.k0_pay1 (F := Ideal) x0 x1 x2 y = plane X θ w b i := by
  have hy : y = ix2 (⟨(y 0).val, idx2_lt0 y⟩ : Fin 128) (⟨(y 1).val, idx2_lt1 y⟩ : Fin 128) := eq_ix2 y
  refine (congrArg (Gen.k0_pay1 (F := Ideal) x0 x1 x2) hy).trans ?_
  refine (Body.stored_apply x0 x1 x2 _ _).trans ?_
  unfold plane readout
  refine congrArg₂ (· + ·) (Finset.sum_congr rfl fun q _ => ?_) h2
  rw [h0 q, h1 q]

variable (m : (ℓ : Loc nD τ sig) → Buf (Elt Ideal) ℓ) (ρ : Dev nD → PrngReg)

/-- The plane of the launch arrays on core c. -/
abbrev planeOf (c : Dev nD) : FVec Ideal S128x8192 .f32 :=
  plane (m ((c : Thread nD τ).loc main_arg0)) (m ((c : Thread nD τ).loc main_arg1)) (m ((c : Thread nD τ).loc main_arg2))
    (m ((c : Thread nD τ).loc main_arg3))

/-- The result array of the launch arrays on core c. -/
abbrev resultOf (c : Dev nD) : FVec Ideal S128x8192x1 .f32 :=
  result (m ((c : Thread nD τ).loc main_arg0)) (m ((c : Thread nD τ).loc main_arg1)) (m ((c : Thread nD τ).loc main_arg2))
    (m ((c : Thread nD τ).loc main_arg3))

/-! ## The blocks -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 64 points: x's block is (0, t, 0), the output's is (0, t), and the row and
    bias arrays are their one block. -/
theorem block_index : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- x's block at point t, read at (p, r, q), is x at (p, 128·t + r, q) — and the output block's entry (p, r) sits at
    (p, 128·t + r): the two agree on where row (p, r) of the block comes from. -/
theorem angles_block (c : Dev nD) (t : Fin cfg0.N) (j : S128x128.Idx) (q : Fin 16) :
    iblk m c 0 t (ix3 (⟨(j 0).val, idx2_lt0 j⟩ : Fin 128) (⟨(j 1).val, idx2_lt1 j⟩ : Fin 128) q)
      = (m ((c : Thread nD τ).loc main_arg0) : FVec Ideal S128x8192x16 .f32)
          (ix3 (⟨((((cfg0.win 3).blk t).view.emb j) 0).val, idx2_lt0 _⟩ : Fin 128)
            (⟨((((cfg0.win 3).blk t).view.emb j) 1).val, idx2_lt1 _⟩ : Fin 8192) q) := by
  obtain ⟨e00, e01, e02, -, -, -, -, -, e30, e31⟩ := block_index t
  show V m c main_arg0 (((cfg0.win 0).blk t).view.emb (ix3 (⟨(j 0).val, idx2_lt0 j⟩ : Fin 128) (⟨(j 1).val, idx2_lt1 j⟩ : Fin 128) q)) = _
  rw [V_main_arg0]
  refine congrArg (m ((c : Thread nD τ).loc main_arg0)) (funext fun a => Fin.ext ?_)
  match a with
  | ⟨0, _⟩ =>
    show win0_0.index t (0 : Fin 3) * 128 + 1 * (j 0).val = win0_3.index t (0 : Fin 2) * 128 + 1 * (j 0).val
    omega
  | ⟨1, _⟩ =>
    show win0_0.index t (1 : Fin 3) * 128 + 1 * (j 1).val = win0_3.index t (1 : Fin 2) * 128 + 1 * (j 1).val
    omega
  | ⟨2, _⟩ =>
    show win0_0.index t (2 : Fin 3) * 16 + 1 * q.val = q.val
    omega

/-- The row array's one block, read at (0, 0, q), is cos θ[q] · w[0, q]. -/
theorem row_block (c : Dev nD) (t : Fin cfg0.N) (q : Fin 16) :
    iblk m c 1 t (ix3 (0 : Fin 1) (0 : Fin 1) q)
      = Ideal.cos ((m ((c : Thread nD τ).loc main_arg1) : FVec Ideal S16 .f32) (ix1 q))
        * (m ((c : Thread nD τ).loc main_arg2) : FVec Ideal S1x16 .f32) (ix2 (0 : Fin 1) q) := by
  obtain ⟨-, -, -, e10, e11, e12, -, -, -, -⟩ := block_index t
  refine Eq.trans ?_ (Glue.row_array_apply m c q)
  show V m c main_v3 (((cfg0.win 1).blk t).view.emb (ix3 (0 : Fin 1) (0 : Fin 1) q)) = V m c main_v3 (ix3 (0 : Fin 1) (0 : Fin 1) q)
  refine congrArg (V m c main_v3) (funext fun a => Fin.ext ?_)
  match a with
  | ⟨0, _⟩ => show win0_1.index t (0 : Fin 3) * 1 + 1 * 0 = 0; omega
  | ⟨1, _⟩ => show win0_1.index t (1 : Fin 3) * 1 + 1 * 0 = 0; omega
  | ⟨2, _⟩ => show win0_1.index t (2 : Fin 3) * 16 + 1 * q.val = q.val; omega

/-- The bias array's one block, read at (0, 0), is b[0]. -/
theorem bias_block (c : Dev nD) (t : Fin cfg0.N) :
    iblk m c 2 t (ix2 (0 : Fin 1) (0 : Fin 1)) = (m ((c : Thread nD τ).loc main_arg3) : FVec Ideal S1 .f32) (ix1 (0 : Fin 1)) := by
  obtain ⟨-, -, -, -, -, -, e20, e21, -, -⟩ := block_index t
  refine Eq.trans ?_ (Glue.bias_array_apply m c)
  show V m c main_v4 (((cfg0.win 2).blk t).view.emb (ix2 (0 : Fin 1) (0 : Fin 1))) = V m c main_v4 (ix2 (0 : Fin 1) (0 : Fin 1))
  refine congrArg (V m c main_v4) (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- WHAT POINT t WRITES BACK is block t of the plane. -/
theorem flushed_eq_plane (c : Dev nD) (t : Fin cfg0.N) :
    (dats m 0 c).flushed 3 t = ((cfg0.win 3).blk t).view.read (Elt Ideal) (planeOf m c) := by
  show (cfg0.win 3).cut (grid0.coords t) ((dats m 0 c).after 3 t) = _
  rw [after0_3]
  unfold out0_3
  rw [View.canon_unit_zero zeros2]
  simp only [View.ld_unit_zero (S := S128x128x16) zeros3, View.ld_unit_zero (S := S1x1x16) zeros3, View.ld_unit_zero (S := S1x1) zeros2]
  funext j
  show k0_pay1 (iblk m c 0 t) (iblk m c 1 t) (iblk m c 2 t) j = planeOf m c (((cfg0.win 3).blk t).view.emb j)
  exact stored_eq_plane (iblk m c 0 t) (iblk m c 1 t) (iblk m c 2 t) _ _ _ _ j _
    (fun q => angles_block m c t j q) (fun q => row_block m c t q) (bias_block m c t)

/-! ## The blocks tile the array -/

/-- An index of the array is in point t's block iff each coordinate is in the block's range on its axis. -/
theorem mem_block (t : Fin cfg0.N) (i : S128x8192.Idx) :
    i ∈ ((cfg0.win 3).blk t).view.set ↔ ∀ a : Fin 2, win0_3.index t a * S128x128.size a ≤ (i a).val
      ∧ (i a).val < win0_3.index t a * S128x128.size a + S128x128.size a := by
  show i ∈ ((View.whole main_v5).slice (win0_3.rect t)).set ↔ _
  rw [View.set_slice_whole, Rect.mem_set_unit]
  exact Iff.rfl

/-- Column r' of the array lies in the block of point r' / 128. -/
theorem covered (i : S128x8192.Idx) :
    ∃ t : Fin cfg0.N, (cfg0.win 3).flush t = true ∧ i ∈ ((cfg0.win 3).blk t).view.set := by
  have hi0 : (i 0).val < 128 := (i 0).isLt
  have hi1 : (i 1).val < 8192 := (i 1).isLt
  have hN : grid0.N = 64 := N_0
  obtain ⟨t, ht⟩ : ∃ t : Fin cfg0.N, t.val = (i 1).val / 128 :=
    ⟨⟨(i 1).val / 128, by show (i 1).val / 128 < grid0.N; rw [hN]; omega⟩, rfl⟩
  obtain ⟨-, -, -, -, -, -, -, -, e30, e31⟩ := block_index t
  refine ⟨t, flush0_3 t, ?_⟩
  rw [mem_block]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 128 ≤ (i 1).val ∧ (i 1).val < win0_3.index t (1 : Fin 2) * 128 + 128
    omega

/-- THE REGION'S ARRAY after the run is the plane. -/
theorem region_array (c : Dev nD) : (dats m 0 c).arrAt 3 cfg0.N = planeOf m c :=
  (dats m 0 c).arrAt_eq_of_cover 3 (planeOf m c) (fun t _ => flushed_eq_plane m c t) covered

/-! ## The line after the region, and the run -/

/-- The plane with a trailing unit axis appended is the result array. -/
theorem append_unit_axis (P : FVec Ideal S128x8192 .f32) (h : S128x8192.BroadcastsInDim S128x8192x1 (![0, 1] : Fin 2 → Fin S128x8192x1.rank))
    (i : S128x8192x1.Idx) :
    broadcastInDim S128x8192x1 ![0, 1] h P i = P (ix2 (⟨(i 0).val, (i 0).isLt⟩ : Fin 128) (⟨(i 1).val, (i 1).isLt⟩ : Fin 8192)) :=
  broadcastInDim_apply _ h P i _ (fun a => match a with
    | ⟨0, _⟩ => by show (i 0).val = if (128 : ℕ) = 1 then 0 else (i 0).val; rw [if_neg (by decide)]
    | ⟨1, _⟩ => by show (i 1).val = if (8192 : ℕ) = 1 then 0 else (i 1).val; rw [if_neg (by decide)])

/-- THE PROGRAM'S RESULT: the line after the region reads the region's array, which is the plane, and appends the unit
    axis. -/
theorem result_array (c : Dev nD) :
    @Eq (FVec Ideal S128x8192x1 .f32) (Pipeline.afterTail₀ cfgs (dats m) 0 (V0 m) [hostOps1] c main_v6) (resultOf m c) := by
  unfold Pipeline.afterTail₀
  show StableHlo.after hostOps1 _ (Proc.devRef .tc main_v6) = _
  after_results
  have hw : @Eq (FVec Ideal S128x8192 .f32)
      (Pipeline.withArrays (cfgs 0).spec c (V0 m c) (fun w => (dats m 0 c).arrAt w (cfgs 0).N) (Proc.devRef .tc main_v5))
      (planeOf m c) :=
    (Pipeline.withArrays_arr spec0 launch0.win.arr_inj c _ _ 3).trans (region_array m c)
  refine (congrArg (broadcastInDim S128x8192x1 ![0, 1] bcast_S128x8192_S128x8192x1_0_1) hw).trans ?_
  funext i
  exact (append_unit_axis (planeOf m c) _ i).trans (result_apply _ _ _ _ i).symm

/-- THE RUN, READ: every weakly fair execution of the kernel program terminates with the result array at the readout
    of the launch arrays and the arguments unchanged. -/
theorem run : θ_run defs (onTc (τ := τ) (main (F := Ideal))) ⟨m, fun _ => 0, ρ⟩ fun r => ∀ c : Dev nD,
      r.2.mem ((c.tc : Thread nD τ).loc main_v6) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v6 (Pipeline.mem_restRefs_of main_v6 (by decide) (by decide))).trans (result_array m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.RegionValue

end
-- ==== Proof.lean ====
/-
  The kernel and its reference compute one function: the weighted-cosine readout.

  For angles x : [128, 8192, 16], angles θ : [16], weights w : [1, 16] and a bias b : [1], both programs return the
  [128, 8192, 1] array whose entry (p, r, 0) is

      ρ(p, r) = (Σ_{q < 16} cos x[p, r, q] · (cos θ[q] · w[0, q])) + b[0]

  over the extended reals (Proof/Spec.lean).

  * The reference forms cos x · cos θ, contracts the last axis with w and adds b: at (p, r, 0) it is
    Σ_q (cos x[p,r,q] · cos θ[q]) · w[0,q] + b[0], which is ρ(p, r) term by term by associativity of the product
    (Proof/RefValue.lean, over the generated read-at-an-index lemmas of the reference's run).
  * The kernel program pre-multiplies c = cos θ · w on the host (Proof/KernelGlue.lean), and each of its 64 grid points
    stores, for the 128 rows it holds of every batch entry, Σ_q cos X[p,r,q] · c[0,0,q] + β[0,0] (Proof/KernelBody.lean);
    point t's block is block t of the plane (p, r') ↦ ρ(p, r'), the blocks tile the array, and the host line after the
    region appends the unit axis (Proof/KernelValue.lean, over the generated frame run).

  The kernel's cosine and the host's are one function at the ideal values, and associativity of the product holds
  for every extended real, so the equality needs no finiteness of the inputs: the precondition is never opened. The
  three frames are the generated ones (the reference's is its generated run with the result dropped), and the
  idealization rewrote nothing, so the preservation claim is trivial.
-/
import proofs.«116402_j65481071405380_2_alg».proof.Defs
import proofs.«116402_j65481071405380_2_alg».proof.Proof.Gen.Kernel
import proofs.«116402_j65481071405380_2_alg».proof.Proof.Gen.Kernel.Skeleton
import proofs.«116402_j65481071405380_2_alg».proof.Proof.Gen.Kernel.Launch
import proofs.«116402_j65481071405380_2_alg».proof.Proof.Gen.Kernel.Points
import proofs.«116402_j65481071405380_2_alg».proof.Proof.Gen.Kernel.Frame
import proofs.«116402_j65481071405380_2_alg».proof.Proof.Gen.KernelIdeal
import proofs.«116402_j65481071405380_2_alg».proof.Proof.Gen.KernelIdeal.Skeleton
import proofs.«116402_j65481071405380_2_alg».proof.Proof.Gen.KernelIdeal.Launch
import proofs.«116402_j65481071405380_2_alg».proof.Proof.Gen.KernelIdeal.Points
import proofs.«116402_j65481071405380_2_alg».proof.Proof.Gen.KernelIdeal.Frame
import proofs.«116402_j65481071405380_2_alg».proof.Proof.Gen.ReferenceIdeal
import proofs.«116402_j65481071405380_2_alg».proof.Proof.Gen.Pre_finite_inputs
import proofs.«116402_j65481071405380_2_alg».proof.Proof.Gen.ReferenceIdeal.Run
import proofs.«116402_j65481071405380_2_alg».proof.Proof.Gen.ReferenceIdeal.Read
import proofs.«116402_j65481071405380_2_alg».proof.Proof.Spec
import proofs.«116402_j65481071405380_2_alg».proof.Proof.RefValue
import proofs.«116402_j65481071405380_2_alg».proof.Proof.KernelValue
import Idealize.ShloMosaic.Adequacy
import Idealize.ShloMosaic.Init

noncomputable section

namespace Cert.Proof

open Idealize.ShloMosaic Idealize.SL.Sem

/-- The word-level kernel program runs and keeps its arguments: its generated frame. -/
theorem frame_kernel : Cert.frame_Kernel := fun m ρ _ => Cert.Kernel.Gen.frame m ρ

/-- The idealized kernel program runs and keeps its arguments: its generated frame. -/
theorem frame_kernel_ideal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the readout of those arguments: the kernel program by
    its run read back, the reference by its generated run, whose last stage is the readout. -/
theorem algebraic : Cert.algebraic_KernelIdeal_ReferenceIdeal := by
  intro m ρ m' ρ' _ hagree
  refine ⟨fun c => Cert.KernelIdeal.RegionValue.resultOf m c, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.stage_eq_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
